-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S16x64 : Shape := ⟨2, ![16, 64]⟩
abbrev S16 : Shape := ⟨1, ![16]⟩
abbrev S7x16 : Shape := ⟨2, ![7, 16]⟩
abbrev S7 : Shape := ⟨1, ![7]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S7x16 : S_.BroadcastsInDim S7x16 (![] : Fin 0 → Fin S7x16.rank)
  reducesTo_S7x16_S_d0_1 : S7x16.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7x16 .f32) (main_arg6 : FVec F S7 .f32) (main_arg7 : FVec F S7x16 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S7x16 .f32 := Host.absf main_arg5
  let main_cst_6 : FVec F S_ .f32 := constant S_ .f32 0x7F800000#32
  let main_v20 : FVec F S7x16 .f32 := broadcastInDim S7x16 ![] bcast_S_S7x16 main_cst_6
  let main_v21 : IVec S7x16 1 := cmpf .olt main_v19 main_v20
  let main_c_7 : IVec S_ 1 := constantI S_ 1 1#1
  let main_v22 : IVec S_ 1 := (fun x v => Host.reduce IntOp.andi x v reducesTo_S7x16_S_d0_1 h_S_) main_v21 main_c_7
  let main_v23 : IVec S_ 1 := andi main_v18 main_v22
  let main_v24 : FVec F S7 .f32 := Host.absf main_arg6
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  let main_v29 : FVec F S7x16 .f32 := Host.absf main_arg7
  let main_cst_10 : FVec F S_ .f32 := constant S_ .f32 0x7F800000#32
  let main_v30 : FVec F S7x16 .f32 := broadcastInDim S7x16 ![] bcast_S_S7x16 main_cst_10
  let main_v31 : IVec S7x16 1 := cmpf .olt main_v29 main_v30
  let main_c_11 : IVec S_ 1 := constantI S_ 1 1#1
  let main_v32 : IVec S_ 1 := (fun x v => Host.reduce IntOp.andi x v reducesTo_S7x16_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S16x64 .f32) (main_arg3 : FVec F S16 .f32) (main_arg4 : FVec F S16x64 .f32) (main_arg5 : FVec F S7x16 .f32) (main_arg6 : FVec F S7 .f32) (main_arg7 : FVec F S7x16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S16x64 .f32 := Host.absf main_arg2
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S16x64 : Shape := ⟨2, ![16, 64]⟩
abbrev S16 : Shape := ⟨1, ![16]⟩
abbrev S7x16 : Shape := ⟨2, ![7, 16]⟩
abbrev S7 : Shape := ⟨1, ![7]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x16 : Shape := ⟨2, ![64, 16]⟩
abbrev S1x16 : Shape := ⟨2, ![1, 16]⟩
abbrev S100000x16 : Shape := ⟨2, ![100000, 16]⟩
abbrev S10000x64 : Shape := ⟨2, ![10000, 64]⟩
abbrev S10000x16 : Shape := ⟨2, ![10000, 16]⟩
abbrev S1600000x16 : Shape := ⟨2, ![1600000, 16]⟩
abbrev S16x7 : Shape := ⟨2, ![16, 7]⟩
abbrev S1x7 : Shape := ⟨2, ![1, 7]⟩
abbrev S100000x7 : Shape := ⟨2, ![100000, 7]⟩
abbrev S10000x7 : Shape := ⟨2, ![10000, 7]⟩
abbrev S10000 : Shape := ⟨1, ![10000]⟩
abbrev S10000x1 : Shape := ⟨2, ![10000, 1]⟩

abbrev nBuf : Space → Nat
  | .hbm => 46
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S16x64, .f32⟩
  | .hbm, ⟨3, _⟩ => ⟨S16, .f32⟩
  | .hbm, ⟨4, _⟩ => ⟨S16x64, .f32⟩
  | .hbm, ⟨5, _⟩ => ⟨S7x16, .f32⟩
  | .hbm, ⟨6, _⟩ => ⟨S7, .f32⟩
  | .hbm, ⟨7, _⟩ => ⟨S7x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S64x16, .f32⟩
  | .hbm, ⟨26, _⟩ => ⟨S64x16, .f32⟩
  | .hbm, ⟨27, _⟩ => ⟨S1x16, .f32⟩
  | .hbm, ⟨28, _⟩ => ⟨S100000x16, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x16, .f32⟩
  | .hbm, ⟨38, _⟩ => ⟨S_, .f32⟩
  | .hbm, ⟨39, _⟩ => ⟨S100000x16, .f32⟩
  | .hbm, ⟨40, _⟩ => ⟨S1600000x1, .i32⟩
  | .hbm, ⟨41, _⟩ => ⟨S100000x16, .f32⟩
  | .hbm, ⟨42, _⟩ => ⟨S16x7, .f32⟩
  | .hbm, ⟨43, _⟩ => ⟨S16x7, .f32⟩
  | .hbm, ⟨44, _⟩ => ⟨S1x7, .f32⟩
  | .hbm, ⟨45, _⟩ => ⟨S100000x7, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x16, .f32⟩
  | .local _ .vmem, ⟨5, _⟩ => ⟨S1x16, .f32⟩
  | .local _ .vmem, ⟨6, _⟩ => ⟨S64x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S16x7, .f32⟩
  | .local _ .vmem, ⟨14, _⟩ => ⟨S1x7, .f32⟩
  | .local _ .vmem, ⟨15, _⟩ => ⟨S16x7, .f32⟩
  | .local _ .vmem, ⟨16, _⟩ => ⟨S10000x7, .f32⟩
  | .local _ .vmem, ⟨17, _⟩ => ⟨S10000x7, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x7 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x7 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S16x64_S64x16_1_0 : S16x64.Transposes [1, 0] S64x16
  shapeCasts_S16_S1x16 : S16.ShapeCasts S1x16
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  transposes_S7x16_S16x7_1_0 : S7x16.Transposes [1, 0] S16x7
  shapeCasts_S7_S1x7 : S7.ShapeCasts S1x7
  shapeCasts_S10000x16_S10000x16 : S10000x16.ShapeCasts S10000x16
  inb_S16x7_S16x7_0_0 : ∀ a, (![0, 0] : Fin 2 → Nat) a + S16x7.size a ≤ S16x7.size a
  h_S16x7 : 0 < S16x7.numel
  shapeCasts_S16x7_S16x7 : S16x7.ShapeCasts S16x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  reduces_S10000x7_S10000 : S10000x7.Reduces [1] S10000
  shapeCasts_S10000_S10000x1 : S10000.ShapeCasts S10000x1
  broadcasts_S10000x1_S10000x7 : S10000x1.Broadcasts S10000x7
  inb_S10000x7_S10000x7_0_0 : ∀ a, (![0, 0] : Fin 2 → Nat) a + S10000x7.size a ≤ S10000x7.size a
  h_S10000x7 : 0 < S10000x7.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x16_S10000x16_1_0_0_1_n_n_wf : DotDims.WF S10000x64 S64x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S10000x16_S16x7_S10000x7_1_0_0_1_n_n_wf : DotDims.WF S10000x16 S16x7 S10000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S100000x16.size a
  hwx0_5 : ∀ i : grid0.Coords, EltTy.bits .f32 = 32 ∨ (Rect.block (s := S100000x16) S10000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x7.size a ≤ S16x7.size a
  hwx1_2 : ∀ i : grid1.Coords, EltTy.bits .f32 = 32 ∨ (Rect.block (s := S16x7) S16x7.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x7.size a ≤ S1x7.size a
  hwx1_3 : ∀ i : grid1.Coords, EltTy.bits .f32 = 32 ∨ (Rect.block (s := S1x7) S1x7.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x7.size a ≤ S16x7.size a
  hwx1_4 : ∀ i : grid1.Coords, EltTy.bits .f32 = 32 ∨ (Rect.block (s := S16x7) S16x7.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x7.size a ≤ S100000x7.size a
  hwx1_5 : ∀ i : grid1.Coords, EltTy.bits .f32 = 32 ∨ (Rect.block (s := S100000x7) S10000x7.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S16x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S16x7.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S10000x7.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S16x64 : Shape := ⟨2, ![16, 64]⟩
abbrev S16 : Shape := ⟨1, ![16]⟩
abbrev S7x16 : Shape := ⟨2, ![7, 16]⟩
abbrev S7 : Shape := ⟨1, ![7]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x16 : Shape := ⟨2, ![64, 16]⟩
abbrev S100000x16 : Shape := ⟨2, ![100000, 16]⟩
abbrev S1x16 : Shape := ⟨2, ![1, 16]⟩
abbrev S1600000x16 : Shape := ⟨2, ![1600000, 16]⟩
abbrev S16x7 : Shape := ⟨2, ![16, 7]⟩
abbrev S100000x7 : Shape := ⟨2, ![100000, 7]⟩
abbrev S1x7 : Shape := ⟨2, ![1, 7]⟩
abbrev S100000 : Shape := ⟨1, ![100000]⟩
abbrev S100000x1 : Shape := ⟨2, ![100000, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S16x64, .f32⟩
  | .hbm, ⟨3, _⟩ => ⟨S16, .f32⟩
  | .hbm, ⟨4, _⟩ => ⟨S16x64, .f32⟩
  | .hbm, ⟨5, _⟩ => ⟨S7x16, .f32⟩
  | .hbm, ⟨6, _⟩ => ⟨S7, .f32⟩
  | .hbm, ⟨7, _⟩ => ⟨S7x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S64x16, .f32⟩
  | .hbm, ⟨26, _⟩ => ⟨S100000x16, .f32⟩
  | .hbm, ⟨27, _⟩ => ⟨S1x16, .f32⟩
  | .hbm, ⟨28, _⟩ => ⟨S100000x16, .f32⟩
  | .hbm, ⟨29, _⟩ => ⟨S100000x16, .f32⟩
  | .hbm, ⟨30, _⟩ => ⟨S64x16, .f32⟩
  | .hbm, ⟨31, _⟩ => ⟨S100000x16, .f32⟩
  | .hbm, ⟨32, _⟩ => ⟨S100000x16, .f32⟩
  | .hbm, ⟨33, _⟩ => ⟨S_, .f32⟩
  | .hbm, ⟨34, _⟩ => ⟨S100000x16, .f32⟩
  | .hbm, ⟨35, _⟩ => ⟨S100000x16, .f32⟩
  | .hbm, ⟨36, _⟩ => ⟨S1x1600000, .i32⟩
  | .hbm, ⟨37, _⟩ => ⟨S1600000, .i32⟩
  | .hbm, ⟨38, _⟩ => ⟨S1x1600000, .i32⟩
  | .hbm, ⟨39, _⟩ => ⟨S1600000, .i32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x16, .f32⟩
  | .hbm, ⟨49, _⟩ => ⟨S_, .f32⟩
  | .hbm, ⟨50, _⟩ => ⟨S100000x16, .f32⟩
  | .hbm, ⟨51, _⟩ => ⟨S1600000x1, .i32⟩
  | .hbm, ⟨52, _⟩ => ⟨S100000x16, .f32⟩
  | .hbm, ⟨53, _⟩ => ⟨S16x7, .f32⟩
  | .hbm, ⟨54, _⟩ => ⟨S100000x7, .f32⟩
  | .hbm, ⟨55, _⟩ => ⟨S1x7, .f32⟩
  | .hbm, ⟨56, _⟩ => ⟨S100000x7, .f32⟩
  | .hbm, ⟨57, _⟩ => ⟨S100000x7, .f32⟩
  | .hbm, ⟨58, _⟩ => ⟨S16x7, .f32⟩
  | .hbm, ⟨59, _⟩ => ⟨S100000x7, .f32⟩
  | .hbm, ⟨60, _⟩ => ⟨S100000x7, .f32⟩
  | .hbm, ⟨61, _⟩ => ⟨S_, .f32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x7, .f32⟩
  | .hbm, ⟨68, _⟩ => ⟨S100000x7, .f32⟩
  | .hbm, ⟨69, _⟩ => ⟨S100000x7, .f32⟩
  | .hbm, ⟨70, _⟩ => ⟨S_, .f32⟩
  | .hbm, ⟨71, _⟩ => ⟨S100000, .f32⟩
  | .hbm, ⟨72, _⟩ => ⟨S100000x1, .f32⟩
  | .hbm, ⟨73, _⟩ => ⟨S100000x1, .f32⟩
  | .hbm, ⟨74, _⟩ => ⟨S100000x7, .f32⟩
  | .hbm, ⟨75, _⟩ => ⟨S100000x7, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call1_cst : Ref sig .tc := ⟨.hbm, 61, rfl⟩
abbrev main_call1_v0 : Ref sig .tc := ⟨.hbm, 62, rfl⟩
abbrev main_call1_cst_0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_cst_1 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_v45 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  transposes_S7x16_S16x7_1_0 : S7x16.Transposes [1, 0] S16x7
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x7_S100000x7_1_0_0_1_n_n_wf : DotDims.WF S100000x16 S16x7 S100000x7 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf

class Facts : Prop extends Facts₀ where

variable [Facts]
-- ==== Proof.GraphLayer.lean ====
import Idealize.ShloMosaic.PureOps.Ideal
import Idealize.ShloMosaic.PureOps.Ideal.Laws
import Idealize.ShloMosaic.Lib.ValueIdx

/-!
# One graph-convolution layer, row by row

A graph-convolution layer sends node `r` with aggregated neighbour features `a` (a row of `K` numbers) and own features
`x` to the row `a · Wrel + b + x · Wroot` of `C` numbers. Each output row depends on row `r` of the two feature
matrices only, which is why cutting the node axis into tiles changes nothing. The first layer follows with `max(·, 0)`,
the second with the logarithm of the softmax along the row: the row minus its maximum, minus the logarithm of the sum of
the exponentials of that difference.
-/

noncomputable section

namespace Cert.GraphLayer

open Idealize.ShloMosaic Idealize.ShloMosaic.ValueIdx

/-- Entry `q` of a node's row before the activation: `(∑ₖ aₖ · Wrel[k, q] + b[q]) + ∑ₖ xₖ · Wroot[k, q]`, added in this order. -/
def pre {K C : ℕ} (a x : Fin K → EReal) (wr wo : (⟨2, ![K, C]⟩ : Shape).Idx → EReal) (b : Fin C → EReal) (q : Fin C) : EReal :=
  ((∑ k : Fin K, a k * wr (ix2 k q)) + b q) + ∑ k : Fin K, x k * wo (ix2 k q)

/-- The first layer's row: the positive part. -/
def reluRow {K C : ℕ} (a x : Fin K → EReal) (wr wo : (⟨2, ![K, C]⟩ : Shape).Idx → EReal) (b : Fin C → EReal) (q : Fin C) : EReal :=
  max (pre a x wr wo b q) (Ideal.ofBits .f32 0x00000000#32)

/-- The largest entry of a node's row, folded from `-∞`. -/
def rowMax {K C : ℕ} (a x : Fin K → EReal) (wr wo : (⟨2, ![K, C]⟩ : Shape).Idx → EReal) (b : Fin C → EReal) : EReal :=
  (Finset.univ : Finset (Fin C)).fold max (Ideal.ofBits .f32 0xFF800000#32) (pre a x wr wo b)

/-- The second layer's row: the log-softmax, `(s_q - M) - log ∑ⱼ exp (sⱼ - M)` with `M` the row's maximum. -/
def logSoftmaxRow {K C : ℕ} (a x : Fin K → EReal) (wr wo : (⟨2, ![K, C]⟩ : Shape).Idx → EReal) (b : Fin C → EReal) (q : Fin C) : EReal :=
  (pre a x wr wo b q - rowMax a x wr wo b)
    - Ideal.log (∑ j : Fin C, Ideal.exp (pre a x wr wo b j - rowMax a x wr wo b))

/-- A whole layer: the row function applied to each node's two feature rows. -/
def layer {N K C : ℕ} (row : (Fin K → EReal) → (Fin K → EReal) → Fin C → EReal)
    (A X : (⟨2, ![N, K]⟩ : Shape).Idx → EReal) : (⟨2, ![N, C]⟩ : Shape).Idx → EReal :=
  fun i => row (fun k => A (ix2 (i 0) k)) (fun k => X (ix2 (i 0) k)) (i 1)

theorem layer_ix2 {N K C : ℕ} (row : (Fin K → EReal) → (Fin K → EReal) → Fin C → EReal)
    (A X : (⟨2, ![N, K]⟩ : Shape).Idx → EReal) (r : Fin N) (q : Fin C) :
    layer row A X (ix2 r q) = row (fun k => A (ix2 r k)) (fun k => X (ix2 r k)) q := rfl

end Cert.GraphLayer

end
-- ==== Proof.Pay0.lean ====
import proofs.«120785_j73005854097868_1_alg».proof.Proof.Gen.KernelIdeal.Skeleton
import proofs.«120785_j73005854097868_1_alg».proof.Proof.GraphLayer
import Idealize.ShloMosaic.Lib.ValueIdx
import Idealize.ShloMosaic.Lib.ValueLayout
import Idealize.ShloMosaic.Lib.Pipeline.Value
import Idealize.ShloMosaic.PureOps.Ideal.Laws

/-!
# The first layer's tile, entry by entry

On a tile of 10000 nodes the kernel multiplies the tile of aggregated features and the tile of node features by the two
64 × 16 weight matrices, adds the bias row to the first product, adds the second product and takes the positive part.
At the exact values each product's entry `(p, q)` is the plain sum over `k` of row `p` times column `q`, so entry
`(p, q)` of the tile is the layer's row function of row `p` of the two feature tiles.
-/

noncomputable section

namespace Cert.KernelIdeal.Hand

open Cert.KernelIdeal Cert.KernelIdeal.Gen Idealize.ShloMosaic Idealize.ShloMosaic.ValueIdx Cert.GraphLayer

abbrev D0 : DotDims S10000x64 S64x16 S10000x16 := dot_S10000x64_S64x16_S10000x16_1_0_0_1_n_n

/-- The left operand of the contraction is read in the output's row. -/
theorem D0_lhs0 (i : S10000x16.Idx) (q : D0.contr.Idx) : (D0.lhsIdx i q 0).val = (i 0).val := by
  unfold DotDims.lhsIdx
  rw [dif_neg (show ¬(0 : Fin S10000x64.rank) ∈ D0.lhsBatch by decide), dif_pos (show (0 : Fin S10000x64.rank) ∈ D0.lhsNonContracting by decide)]
  rfl

/-- The right operand of the contraction is read in the output's column. -/
theorem D0_rhs1 (i : S10000x16.Idx) (q : D0.contr.Idx) : (D0.rhsIdx i q 1).val = (i 1).val := by
  unfold DotDims.rhsIdx
  rw [dif_neg (show ¬(1 : Fin S64x16.rank) ∈ D0.rhsBatch by decide), dif_pos (show (1 : Fin S64x16.rank) ∈ D0.rhsNonContracting by decide)]
  rfl

/-- A [10000, 64] × [64, 16] product accumulated into zero: entry `(p, q)` is `∑ₖ l[p, k] · r[k, q]`. -/
theorem mm0_apply {φ₁ φ₂ : FTy} (l : FVec Ideal S10000x64 φ₁) (r : FVec Ideal S64x16 φ₂) (p : Fin 10000) (q : Fin 16) :
    matmul D0 none l r (constant S10000x16 .f32 0x00000000#32) (ix2 p q) = ∑ k : Fin 64, l (ix2 p k) * r (ix2 k q) := by
  simp only [matmul]
  rw [Ideal.matmul_constant_zero_apply, ← Equiv.sum_comp (contrEquiv1 D0 64 rfl rfl).symm]
  refine Finset.sum_congr rfl fun k _ => ?_
  have hk := contrEquiv1_symm_val D0 64 rfl rfl k
  have el : D0.lhsIdx (ix2 p q) ((contrEquiv1 D0 64 rfl rfl).symm k) = ix2 p k := funext fun a => Fin.ext (by
    match a with
    | ⟨0, _⟩ => exact D0_lhs0 _ _
    | ⟨1, _⟩ => exact (D0.lhsIdx_val_of_single rfl _ _).trans hk)
  have er : D0.rhsIdx (ix2 p q) ((contrEquiv1 D0 64 rfl rfl).symm k) = ix2 k q := funext fun a => Fin.ext (by
    match a with
    | ⟨0, _⟩ => exact (D0.rhsIdx_val_of_single rfl _ _).trans hk
    | ⟨1, _⟩ => exact D0_rhs1 _ _)
  rw [el, er]

/-- Entry `(p, q)` of what the body stores for a tile is the first layer's row function of row `p` of the two feature
    tiles, the two weight matrices and the bias row. -/
theorem pay0_at (x0 x1 : Vec Ideal S10000x64 .f32) (x2 x4 : Vec Ideal S64x16 .f32) (x3 : Vec Ideal S1x16 .f32) (p : Fin 10000) (q : Fin 16) :
    k0_pay1 x0 x1 x2 x4 x3 (ix2 p q)
      = reluRow (fun k => x0 (ix2 p k)) (fun k => x1 (ix2 p k)) x2 x4 (fun j => x3 (ix2 (0 : Fin 1) j)) q := by
  unfold k0_pay1
  simp only [shapeCast_self, maximumf_apply, addf_apply, broadcast_apply]
  rw [mm0_apply, mm0_apply, broadcastTo_1b_ab_apply]
  rfl

end Cert.KernelIdeal.Hand

end
-- ==== Proof.Tiles0.lean ====
import proofs.«120785_j73005854097868_1_alg».proof.Proof.Gen.KernelIdeal.Frame
import proofs.«120785_j73005854097868_1_alg».proof.Proof.Pay0
import Idealize.ShloMosaic.Lib.Pipeline.Value

/-!
# The first layer's output array

The node axis is cut into ten tiles of 10000 rows. Tile `t` of the two feature arrays is their rows
`10000·t … 10000·t + 9999`; the weight matrices and the bias row are read whole at every tile. Since a layer's row
`r` depends on row `r` of the two feature arrays only, what tile `t` writes back is rows `10000·t …` of the layer
applied to the whole arrays, and the ten tiles cover the output array: after the last tile the array holds the layer of
the arrays the tiled call was entered with.
-/

set_option maxRecDepth 16384

noncomputable section

namespace Cert.KernelIdeal.Hand

open Cert.KernelIdeal Cert.KernelIdeal.Gen Idealize.ShloMosaic Idealize.ShloMosaic.TcCoe Idealize.ShloMosaic.ValueIdx
open Cert.GraphLayer Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The first layer of the arrays the tiled call is entered with. -/
def hidden (c : Dev nD) : S100000x16.Idx → EReal :=
  layer (N := 100000) (K := 64) (C := 16)
    (fun a x => reluRow a x (V c main_v14) (V c main_v15) (fun j => (V c main_v16 : S1x16.Idx → EReal) (ix2 (0 : Fin 1) j)))
    (V c main_v13) (V c main_arg0)

/-- Which block each window reads at grid point `t`: block row `t` of the two feature arrays and of the output, block
    `(0, 0)` of the weights and the bias. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of tile `t` of the aggregated features is row `10000·t + p` of the array. -/
theorem blk0_0 (c : Dev nD) (t : Fin cfg0.N) (p : Fin 10000) (k : Fin 64) (ht : t.val * 10000 + p.val < 100000) :
    (iblk0 V c 0 t : S10000x64.Idx → EReal) (ix2 p k) = (V c main_v13 : S100000x64.Idx → EReal) (ix2 ⟨t.val * 10000 + p.val, ht⟩ k) := by
  unfold iblk0
  rw [View.read_apply]
  show (V c main_v13 : S100000x64.Idx → EReal) _ = _
  refine congrArg _ (funext fun a => Fin.ext ?_)
  obtain ⟨e0, e1, -⟩ := idx0 t
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- Row `p` of tile `t` of the node features is row `10000·t + p` of the array. -/
theorem blk0_1 (c : Dev nD) (t : Fin cfg0.N) (p : Fin 10000) (k : Fin 64) (ht : t.val * 10000 + p.val < 100000) :
    (iblk0 V c 1 t : S10000x64.Idx → EReal) (ix2 p k) = (V c main_arg0 : S100000x64.Idx → EReal) (ix2 ⟨t.val * 10000 + p.val, ht⟩ k) := by
  unfold iblk0
  rw [View.read_apply]
  show (V c main_arg0 : S100000x64.Idx → EReal) _ = _
  refine congrArg _ (funext fun a => Fin.ext ?_)
  obtain ⟨-, -, e0, e1, -⟩ := idx0 t
  match a with
  | ⟨0, _⟩ => show win0_1.index t (0 : Fin 2) * 10000 + 1 * p.val = t.val * 10000 + p.val; rw [e0]; omega
  | ⟨1, _⟩ => show win0_1.index t (1 : Fin 2) * 64 + 1 * k.val = k.val; rw [e1]; omega

/-- The first weight matrix is read whole at every tile. -/
theorem blk0_2 (c : Dev nD) (t : Fin cfg0.N) : (iblk0 V c 2 t : S64x16.Idx → EReal) = V c main_v14 := by
  funext z
  unfold iblk0
  rw [View.read_apply]
  show (V c main_v14 : S64x16.Idx → EReal) _ = _
  refine congrArg _ (funext fun a => Fin.ext ?_)
  obtain ⟨-, -, -, -, e0, e1, -⟩ := idx0 t
  match a with
  | ⟨0, _⟩ => show win0_2.index t (0 : Fin 2) * 64 + 1 * (z 0).val = (z 0).val; rw [e0]; omega
  | ⟨1, _⟩ => show win0_2.index t (1 : Fin 2) * 16 + 1 * (z 1).val = (z 1).val; rw [e1]; omega

/-- The bias row is read whole at every tile. -/
theorem blk0_3 (c : Dev nD) (t : Fin cfg0.N) : (iblk0 V c 3 t : S1x16.Idx → EReal) = V c main_v16 := by
  funext z
  unfold iblk0
  rw [View.read_apply]
  show (V c main_v16 : S1x16.Idx → EReal) _ = _
  refine congrArg _ (funext fun a => Fin.ext ?_)
  obtain ⟨-, -, -, -, -, -, e0, e1, -⟩ := idx0 t
  match a with
  | ⟨0, _⟩ => show win0_3.index t (0 : Fin 2) * 1 + 1 * (z 0).val = (z 0).val; rw [e0]; omega
  | ⟨1, _⟩ => show win0_3.index t (1 : Fin 2) * 16 + 1 * (z 1).val = (z 1).val; rw [e1]; omega

/-- The second weight matrix is read whole at every tile. -/
theorem blk0_4 (c : Dev nD) (t : Fin cfg0.N) : (iblk0 V c 4 t : S64x16.Idx → EReal) = V c main_v15 := by
  funext z
  unfold iblk0
  rw [View.read_apply]
  show (V c main_v15 : S64x16.Idx → EReal) _ = _
  refine congrArg _ (funext fun a => Fin.ext ?_)
  obtain ⟨-, -, -, -, -, -, -, -, e0, e1, -⟩ := idx0 t
  match a with
  | ⟨0, _⟩ => show win0_4.index t (0 : Fin 2) * 64 + 1 * (z 0).val = (z 0).val; rw [e0]; omega
  | ⟨1, _⟩ => show win0_4.index t (1 : Fin 2) * 16 + 1 * (z 1).val = (z 1).val; rw [e1]; omega

/-- What tile `t` writes back is block row `t` of the layer of the whole arrays. -/
theorem flushed0_eq (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero hz0]
  simp only [View.ld_unit_zero (S := S10000x64) hz0, View.ld_unit_zero (S := S64x16) hz0, View.ld_unit_zero (S := S1x16) hz0]
  funext y
  obtain ⟨p, q, rfl⟩ : ∃ (p : Fin 10000) (q : Fin 16), y = ix2 p q := ⟨y 0, y 1, eq_ix2 y⟩
  have ht : t.val < 10 := by have h := t.isLt; have hN : cfg0.N = 10 := N_0; omega
  have hp := p.isLt
  have hlt : t.val * 10000 + p.val < 100000 := by omega
  obtain ⟨-, -, -, -, -, -, -, -, -, -, e0, e1⟩ := idx0 t
  have hemb : ((cfg0.win 5).blk t).view.emb (ix2 p q) = (ix2 ⟨t.val * 10000 + p.val, hlt⟩ q : S100000x16.Idx) :=
    funext fun a => Fin.ext (by
      match a with
      | ⟨0, _⟩ => show win0_5.index t (0 : Fin 2) * 10000 + 1 * p.val = t.val * 10000 + p.val; rw [e0]; omega
      | ⟨1, _⟩ => show win0_5.index t (1 : Fin 2) * 16 + 1 * q.val = q.val; rw [e1]; omega)
  show k0_pay1 (iblk0 V c 0 t) (iblk0 V c 1 t) (iblk0 V c 2 t) (iblk0 V c 4 t) (iblk0 V c 3 t) (ix2 p q)
    = hidden V c (((cfg0.win 5).blk t).view.emb (ix2 p q))
  rw [hemb]
  refine (pay0_at (iblk0 V c 0 t) (iblk0 V c 1 t) (iblk0 V c 2 t) (iblk0 V c 4 t) (iblk0 V c 3 t) p q).trans ?_
  unfold hidden
  rw [layer_ix2, blk0_2 V c t, blk0_3 V c t, blk0_4 V c t,
    show (fun k : Fin 64 => (iblk0 V c 0 t : S10000x64.Idx → EReal) (ix2 p k))
      = fun k => (V c main_v13 : S100000x64.Idx → EReal) (ix2 ⟨t.val * 10000 + p.val, hlt⟩ k) from funext fun k => blk0_0 V c t p k hlt,
    show (fun k : Fin 64 => (iblk0 V c 1 t : S10000x64.Idx → EReal) (ix2 p k))
      = fun k => (V c main_arg0 : S100000x64.Idx → EReal) (ix2 ⟨t.val * 10000 + p.val, hlt⟩ k) from funext fun k => blk0_1 V c t p k hlt]

/-- An index of the output array lies in tile `t`'s block iff its row is one of the tile's 10000 rows. -/
theorem mem_blk0 (t : Fin cfg0.N) (i : S100000x16.Idx) :
    i ∈ ((cfg0.win 5).blk t).view.set ↔ ∀ a : Fin 2, win0_5.index t a * S10000x16.size a ≤ (i a).val ∧ (i a).val < win0_5.index t a * S10000x16.size a + S10000x16.size a := by
  show i ∈ ((View.whole main_v17).slice (win0_5.rect t)).set ↔ _
  rw [View.set_slice_whole, Rect.mem_set_unit]
  exact Iff.rfl

/-- Every index of the output array is in the block of the tile its row falls in. -/
theorem cover0 (i : S100000x16.Idx) : ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 10 := N_0
  refine ⟨⟨(i 0).val / 10000, by rw [hN]; omega⟩, flush0_5 _, ?_⟩
  rw [mem_blk0]
  obtain ⟨-, -, -, -, -, -, -, -, -, -, e0, e1⟩ := idx0 ⟨(i 0).val / 10000, by rw [hN]; omega⟩
  intro a
  match a with
  | ⟨0, _⟩ =>
    show win0_5.index _ (0 : Fin 2) * 10000 ≤ (i 0).val ∧ (i 0).val < win0_5.index _ (0 : Fin 2) * 10000 + 10000
    rw [e0]; show (i 0).val / 10000 * 10000 ≤ (i 0).val ∧ (i 0).val < (i 0).val / 10000 * 10000 + 10000; omega
  | ⟨1, _⟩ =>
    show win0_5.index _ (1 : Fin 2) * 16 ≤ (i 1).val ∧ (i 1).val < win0_5.index _ (1 : Fin 2) * 16 + 16
    rw [e1]; omega

/-- After the last tile the output array holds the layer of the arrays the tiled call was entered with. -/
theorem final0 (c : Dev nD) : (dat0 V c).arrAt 5 cfg0.N = hidden V c :=
  (dat0 V c).arrAt_eq_of_cover 5 (hidden V c) (fun t _ => flushed0_eq V c t) (cover0)

end Cert.KernelIdeal.Hand

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.Pay1.lean ====
import proofs.«120785_j73005854097868_1_alg».proof.Proof.Gen.KernelIdeal.Skeleton
import proofs.«120785_j73005854097868_1_alg».proof.Proof.GraphLayer
import proofs.«120785_j73005854097868_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

/-!
# The second layer's tile, entry by entry

On a tile of 10000 nodes the kernel forms the 10000 × 7 scores `s = (agg · Wrel + b) + h · Wroot`, takes each row's
maximum `M` (a reduction along the row, started at `-∞`, kept as a column and spread back over the row), subtracts it,
sums the exponentials along the row, takes the logarithm and subtracts that. Entry `(p, q)` of the tile is therefore
the log-softmax row function of row `p` of the two feature tiles: the reductions run over the seven entries of row `p`
alone.
-/

noncomputable section

namespace Cert.KernelIdeal.Hand

open Cert.KernelIdeal Cert.KernelIdeal.Gen Idealize.ShloMosaic Idealize.ShloMosaic.ValueIdx Cert.GraphLayer
open Cert.LibColumnLayout

abbrev D1 : DotDims S10000x16 S16x7 S10000x7 := dot_S10000x16_S16x7_S10000x7_1_0_0_1_n_n

/-- The left operand of the contraction is read in the output's row. -/
theorem D1_lhs0 (i : S10000x7.Idx) (q : D1.contr.Idx) : (D1.lhsIdx i q 0).val = (i 0).val := by
  unfold DotDims.lhsIdx
  rw [dif_neg (show ¬(0 : Fin S10000x16.rank) ∈ D1.lhsBatch by decide), dif_pos (show (0 : Fin S10000x16.rank) ∈ D1.lhsNonContracting by decide)]
  rfl

/-- The right operand of the contraction is read in the output's column. -/
theorem D1_rhs1 (i : S10000x7.Idx) (q : D1.contr.Idx) : (D1.rhsIdx i q 1).val = (i 1).val := by
  unfold DotDims.rhsIdx
  rw [dif_neg (show ¬(1 : Fin S16x7.rank) ∈ D1.rhsBatch by decide), dif_pos (show (1 : Fin S16x7.rank) ∈ D1.rhsNonContracting by decide)]
  rfl

/-- A [10000, 16] × [16, 7] product accumulated into zero: entry `(p, q)` is `∑ₖ l[p, k] · r[k, q]`. -/
theorem mm1_apply {φ₁ φ₂ : FTy} (l : FVec Ideal S10000x16 φ₁) (r : FVec Ideal S16x7 φ₂) (p : Fin 10000) (q : Fin 7) :
    matmul D1 none l r (constant S10000x7 .f32 0x00000000#32) (ix2 p q) = ∑ k : Fin 16, l (ix2 p k) * r (ix2 k q) := by
  simp only [matmul]
  rw [Ideal.matmul_constant_zero_apply, ← Equiv.sum_comp (contrEquiv1 D1 16 rfl rfl).symm]
  refine Finset.sum_congr rfl fun k _ => ?_
  have hk := contrEquiv1_symm_val D1 16 rfl rfl k
  have el : D1.lhsIdx (ix2 p q) ((contrEquiv1 D1 16 rfl rfl).symm k) = ix2 p k := funext fun a => Fin.ext (by
    match a with
    | ⟨0, _⟩ => exact D1_lhs0 _ _
    | ⟨1, _⟩ => exact (D1.lhsIdx_val_of_single rfl _ _).trans hk)
  have er : D1.rhsIdx (ix2 p q) ((contrEquiv1 D1 16 rfl rfl).symm k) = ix2 k q := funext fun a => Fin.ext (by
    match a with
    | ⟨0, _⟩ => exact (D1.rhsIdx_val_of_single rfl _ _).trans hk
    | ⟨1, _⟩ => exact D1_rhs1 _ _)
  rw [el, er]

/-- Inserting coordinate `k` on the reduced axis of row `p` gives entry `(p, k)`. -/
theorem lift_row (h : S10000x7.Reduces [1] S10000) (p : Fin 10000) (k : Fin 7) : h.lift (ix1 p) k = ix2 p k :=
  funext fun a => Fin.ext (by
    match a with
    | ⟨0, _⟩ => rfl
    | ⟨1, _⟩ => rfl)

/-- A row's maximum, kept as a column and spread back over the row, read at `(p, q)`: the fold of `max` from `-∞` over
    the seven entries of row `p`. -/
theorem rowmax_at (v : FVec Ideal S10000x7 .f32) (h : S10000x7.Reduces [1] S10000) (hφ : FKind.Formats .f32)
    (hacc : (0xFF800000#32 : BitVec 32) = FKind.maximumf.neutral .f32 hφ)
    (hc : S10000.ShapeCasts S10000x1) (hb : S10000x1.Broadcasts S10000x7) (p : Fin 10000) (q : Fin 7) :
    broadcastTo S10000x7 (shapeCast S10000x1 (multiReduction .maximumf [1] S10000 v 0xFF800000#32 h hφ hacc) hc) hb (ix2 p q)
      = (Finset.univ : Finset (Fin 7)).fold max (Ideal.ofBits .f32 0xFF800000#32) (fun j => v (ix2 p j)) := by
  refine (broadcastTo_a1_ab_apply _ hb p q).trans ?_
  refine (shapeCast_a_a1_apply _ hc p 0).trans ?_
  refine (Ideal.multiReduction_maximumf_single v 0xFF800000#32 h hφ hacc (ix1 p)).trans ?_
  show Finset.fold max (Ideal.ofBits .f32 0xFF800000#32) (v ∘ h.lift (ix1 p)) Finset.univ = _
  rw [show (v ∘ h.lift (ix1 p)) = fun j => v (ix2 p j) from funext fun k => congrArg v (lift_row h p k)]
  rfl

/-- A row's sum, kept as a column, its logarithm spread back over the row, read at `(p, q)`. -/
theorem rowlogsum_at (v : FVec Ideal S10000x7 .f32) (h : S10000x7.Reduces [1] S10000) (hφ : FKind.Formats .f32)
    (hacc : (0x00000000#32 : BitVec 32) = FKind.add.neutral .f32 hφ)
    (hc : S10000.ShapeCasts S10000x1) (hb : S10000x1.Broadcasts S10000x7) (p : Fin 10000) (q : Fin 7) :
    broadcastTo S10000x7 (log (shapeCast S10000x1 (multiReduction .add [1] S10000 v 0x00000000#32 h hφ hacc) hc)) hb (ix2 p q)
      = Ideal.log (∑ j : Fin 7, v (ix2 p j)) := by
  refine (broadcastTo_a1_ab_apply _ hb p q).trans ?_
  show Ideal.log (shapeCast S10000x1 (multiReduction .add [1] S10000 v 0x00000000#32 h hφ hacc) hc (ix2 p (0 : Fin 1))) = _
  refine congrArg Ideal.log ?_
  refine (shapeCast_a_a1_apply _ hc p 0).trans ?_
  refine (Ideal.multiReduction_add_single v 0x00000000#32 h hφ hacc (ix1 p)).trans ?_
  refine Finset.sum_congr rfl fun k _ => ?_
  exact congrArg v (lift_row h p k)

theorem exp_apply (x : FVec Ideal S10000x7 .f32) (i : S10000x7.Idx) : exp x i = Ideal.exp (x i) := rfl

/-- The softmax tail on any score tile `s`: subtracting the row maximum, then the logarithm of the row's sum of
    exponentials, read at `(p, q)`. -/
theorem logSoftmax_tail_at (s : FVec Ideal S10000x7 .f32) (h : S10000x7.Reduces [1] S10000) (hφ : FKind.Formats .f32)
    (hmax : (0xFF800000#32 : BitVec 32) = FKind.maximumf.neutral .f32 hφ)
    (hadd : (0x00000000#32 : BitVec 32) = FKind.add.neutral .f32 hφ)
    (hc : S10000.ShapeCasts S10000x1) (hb : S10000x1.Broadcasts S10000x7) (p : Fin 10000) (q : Fin 7) :
    subf (subf s (broadcastTo S10000x7 (shapeCast S10000x1 (multiReduction .maximumf [1] S10000 s 0xFF800000#32 h hφ hmax) hc) hb))
      (broadcastTo S10000x7 (log (shapeCast S10000x1 (multiReduction .add [1] S10000
        (exp (subf s (broadcastTo S10000x7 (shapeCast S10000x1 (multiReduction .maximumf [1] S10000 s 0xFF800000#32 h hφ hmax) hc) hb)))
        0x00000000#32 h hφ hadd) hc)) hb) (ix2 p q)
      = (s (ix2 p q) - (Finset.univ : Finset (Fin 7)).fold max (Ideal.ofBits .f32 0xFF800000#32) (fun j => s (ix2 p j)))
        - Ideal.log (∑ j : Fin 7, Ideal.exp (s (ix2 p j)
            - (Finset.univ : Finset (Fin 7)).fold max (Ideal.ofBits .f32 0xFF800000#32) (fun j => s (ix2 p j)))) := by
  simp only [subf_apply]
  rw [rowlogsum_at, rowmax_at]
  refine congrArg (fun z => _ - Ideal.log z) (Finset.sum_congr rfl fun j _ => ?_)
  show Ideal.exp (s (ix2 p j) - _) = _
  rw [rowmax_at]

/-- The scores of a tile before the softmax, as the body forms them. -/
def scores (x0 x1 : Vec Ideal S10000x16 .f32) (x2 x4 : Vec Ideal S16x7 .f32) (x3 : Vec Ideal S1x7 .f32) : FVec Ideal S10000x7 .f32 :=
  addf (addf (matmul D1 none (truncf .bf16 x0 bitsLt_bf16_f32) (truncf .bf16 x2 bitsLt_bf16_f32) (constant S10000x7 .f32 0x00000000#32))
      (broadcastTo S10000x7 x3 broadcasts_S1x7_S10000x7))
    (matmul D1 none (truncf .bf16 x1 bitsLt_bf16_f32) (truncf .bf16 x4 bitsLt_bf16_f32) (constant S10000x7 .f32 0x00000000#32))

/-- Entry `(p, j)` of the scores is the layer's pre-activation of row `p`. -/
theorem scores_at (x0 x1 : Vec Ideal S10000x16 .f32) (x2 x4 : Vec Ideal S16x7 .f32) (x3 : Vec Ideal S1x7 .f32) (p : Fin 10000) (j : Fin 7) :
    scores x0 x1 x2 x4 x3 (ix2 p j)
      = pre (fun k => x0 (ix2 p k)) (fun k => x1 (ix2 p k)) x2 x4 (fun c => x3 (ix2 (0 : Fin 1) c)) j := by
  unfold scores
  simp only [addf_apply]
  rw [mm1_apply, mm1_apply, broadcastTo_1b_ab_apply]
  rfl

/-- Entry `(p, q)` of what the body stores for a tile is the log-softmax row function of row `p` of the two feature
    tiles, the two weight matrices and the bias row. -/
theorem pay1_at (x0 x1 : Vec Ideal S10000x16 .f32) (x2 x4 : Vec Ideal S16x7 .f32) (x3 : Vec Ideal S1x7 .f32) (p : Fin 10000) (q : Fin 7) :
    k1_pay1 x0 x1 x2 x4 x3 (ix2 p q)
      = logSoftmaxRow (fun k => x0 (ix2 p k)) (fun k => x1 (ix2 p k)) x2 x4 (fun c => x3 (ix2 (0 : Fin 1) c)) q := by
  unfold k1_pay1
  simp only [shapeCast_self]
  refine (logSoftmax_tail_at (scores x0 x1 x2 x4 x3) reduces_S10000x7_S10000 (.inl rfl) rfl rfl shapeCasts_S10000_S10000x1
    broadcasts_S10000x1_S10000x7 p q).trans ?_
  simp only [scores_at]
  rfl

end Cert.KernelIdeal.Hand

end
-- ==== Proof.Tiles1.lean ====
import proofs.«120785_j73005854097868_1_alg».proof.Proof.Gen.KernelIdeal.Frame
import proofs.«120785_j73005854097868_1_alg».proof.Proof.Pay1
import Idealize.ShloMosaic.Lib.Pipeline.Value

/-!
# The second layer's output array

The node axis is cut into ten tiles of 10000 rows. Tile `t` of the two feature arrays is their rows
`10000·t … 10000·t + 9999`; the weight matrices and the bias row are read whole at every tile. Since a layer's row
`r` depends on row `r` of the two feature arrays only, what tile `t` writes back is rows `10000·t …` of the layer
applied to the whole arrays, and the ten tiles cover the output array: after the last tile the array holds the layer of
the arrays the tiled call was entered with.
-/

set_option maxRecDepth 16384

noncomputable section

namespace Cert.KernelIdeal.Hand

open Cert.KernelIdeal Cert.KernelIdeal.Gen Idealize.ShloMosaic Idealize.ShloMosaic.TcCoe Idealize.ShloMosaic.ValueIdx
open Cert.GraphLayer Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The second layer of the arrays the tiled call is entered with. -/
def scoresOut (c : Dev nD) : S100000x7.Idx → EReal :=
  layer (N := 100000) (K := 16) (C := 7)
    (fun a x => logSoftmaxRow a x (V c main_v28) (V c main_v29) (fun j => (V c main_v30 : S1x7.Idx → EReal) (ix2 (0 : Fin 1) j)))
    (V c main_v27) (V c main_v17)

/-- Which block each window reads at grid point `t`: block row `t` of the two feature arrays and of the output, block
    `(0, 0)` of the weights and the bias. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of tile `t` of the aggregated features is row `10000·t + p` of the array. -/
theorem blk1_0 (c : Dev nD) (t : Fin cfg1.N) (p : Fin 10000) (k : Fin 16) (ht : t.val * 10000 + p.val < 100000) :
    (iblk1 V c 0 t : S10000x16.Idx → EReal) (ix2 p k) = (V c main_v27 : S100000x16.Idx → EReal) (ix2 ⟨t.val * 10000 + p.val, ht⟩ k) := by
  unfold iblk1
  rw [View.read_apply]
  show (V c main_v27 : S100000x16.Idx → EReal) _ = _
  refine congrArg _ (funext fun a => Fin.ext ?_)
  obtain ⟨e0, e1, -⟩ := idx1 t
  match a with
  | ⟨0, _⟩ => show win1_0.index t (0 : Fin 2) * 10000 + 1 * p.val = t.val * 10000 + p.val; rw [e0]; omega
  | ⟨1, _⟩ => show win1_0.index t (1 : Fin 2) * 16 + 1 * k.val = k.val; rw [e1]; omega

/-- Row `p` of tile `t` of the node features is row `10000·t + p` of the array. -/
theorem blk1_1 (c : Dev nD) (t : Fin cfg1.N) (p : Fin 10000) (k : Fin 16) (ht : t.val * 10000 + p.val < 100000) :
    (iblk1 V c 1 t : S10000x16.Idx → EReal) (ix2 p k) = (V c main_v17 : S100000x16.Idx → EReal) (ix2 ⟨t.val * 10000 + p.val, ht⟩ k) := by
  unfold iblk1
  rw [View.read_apply]
  show (V c main_v17 : S100000x16.Idx → EReal) _ = _
  refine congrArg _ (funext fun a => Fin.ext ?_)
  obtain ⟨-, -, e0, e1, -⟩ := idx1 t
  match a with
  | ⟨0, _⟩ => show win1_1.index t (0 : Fin 2) * 10000 + 1 * p.val = t.val * 10000 + p.val; rw [e0]; omega
  | ⟨1, _⟩ => show win1_1.index t (1 : Fin 2) * 16 + 1 * k.val = k.val; rw [e1]; omega

/-- The first weight matrix is read whole at every tile. -/
theorem blk1_2 (c : Dev nD) (t : Fin cfg1.N) : (iblk1 V c 2 t : S16x7.Idx → EReal) = V c main_v28 := by
  funext z
  unfold iblk1
  rw [View.read_apply]
  show (V c main_v28 : S16x7.Idx → EReal) _ = _
  refine congrArg _ (funext fun a => Fin.ext ?_)
  obtain ⟨-, -, -, -, e0, e1, -⟩ := idx1 t
  match a with
  | ⟨0, _⟩ => show win1_2.index t (0 : Fin 2) * 16 + 1 * (z 0).val = (z 0).val; rw [e0]; omega
  | ⟨1, _⟩ => show win1_2.index t (1 : Fin 2) * 7 + 1 * (z 1).val = (z 1).val; rw [e1]; omega

/-- The bias row is read whole at every tile. -/
theorem blk1_3 (c : Dev nD) (t : Fin cfg1.N) : (iblk1 V c 3 t : S1x7.Idx → EReal) = V c main_v30 := by
  funext z
  unfold iblk1
  rw [View.read_apply]
  show (V c main_v30 : S1x7.Idx → EReal) _ = _
  refine congrArg _ (funext fun a => Fin.ext ?_)
  obtain ⟨-, -, -, -, -, -, e0, e1, -⟩ := idx1 t
  match a with
  | ⟨0, _⟩ => show win1_3.index t (0 : Fin 2) * 1 + 1 * (z 0).val = (z 0).val; rw [e0]; omega
  | ⟨1, _⟩ => show win1_3.index t (1 : Fin 2) * 7 + 1 * (z 1).val = (z 1).val; rw [e1]; omega

/-- The second weight matrix is read whole at every tile. -/
theorem blk1_4 (c : Dev nD) (t : Fin cfg1.N) : (iblk1 V c 4 t : S16x7.Idx → EReal) = V c main_v29 := by
  funext z
  unfold iblk1
  rw [View.read_apply]
  show (V c main_v29 : S16x7.Idx → EReal) _ = _
  refine congrArg _ (funext fun a => Fin.ext ?_)
  obtain ⟨-, -, -, -, -, -, -, -, e0, e1, -⟩ := idx1 t
  match a with
  | ⟨0, _⟩ => show win1_4.index t (0 : Fin 2) * 16 + 1 * (z 0).val = (z 0).val; rw [e0]; omega
  | ⟨1, _⟩ => show win1_4.index t (1 : Fin 2) * 7 + 1 * (z 1).val = (z 1).val; rw [e1]; omega

/-- What tile `t` writes back is block row `t` of the layer of the whole arrays. -/
theorem flushed1_eq (c : Dev nD) (t : Fin cfg1.N) :
    (dat1 V c).flushed 5 t = ((cfg1.win 5).blk t).view.read (Elt Ideal) (scoresOut V c) := by
  show (cfg1.win 5).cut (grid1.coords t) ((dat1 V c).after 5 t) = _
  rw [after1_5]
  unfold out1_5
  rw [View.canon_unit_zero hz1]
  simp only [View.ld_unit_zero (S := S10000x16) hz1, View.ld_unit_zero (S := S16x7) hz1, View.ld_unit_zero (S := S1x7) hz1]
  funext y
  obtain ⟨p, q, rfl⟩ : ∃ (p : Fin 10000) (q : Fin 7), y = ix2 p q := ⟨y 0, y 1, eq_ix2 y⟩
  have ht : t.val < 10 := by have h := t.isLt; have hN : cfg1.N = 10 := N_1; omega
  have hp := p.isLt
  have hlt : t.val * 10000 + p.val < 100000 := by omega
  obtain ⟨-, -, -, -, -, -, -, -, -, -, e0, e1⟩ := idx1 t
  have hemb : ((cfg1.win 5).blk t).view.emb (ix2 p q) = (ix2 ⟨t.val * 10000 + p.val, hlt⟩ q : S100000x7.Idx) :=
    funext fun a => Fin.ext (by
      match a with
      | ⟨0, _⟩ => show win1_5.index t (0 : Fin 2) * 10000 + 1 * p.val = t.val * 10000 + p.val; rw [e0]; omega
      | ⟨1, _⟩ => show win1_5.index t (1 : Fin 2) * 7 + 1 * q.val = q.val; rw [e1]; omega)
  show k1_pay1 (iblk1 V c 0 t) (iblk1 V c 1 t) (iblk1 V c 2 t) (iblk1 V c 4 t) (iblk1 V c 3 t) (ix2 p q)
    = scoresOut V c (((cfg1.win 5).blk t).view.emb (ix2 p q))
  rw [hemb]
  refine (pay1_at (iblk1 V c 0 t) (iblk1 V c 1 t) (iblk1 V c 2 t) (iblk1 V c 4 t) (iblk1 V c 3 t) p q).trans ?_
  unfold scoresOut
  rw [layer_ix2, blk1_2 V c t, blk1_3 V c t, blk1_4 V c t,
    show (fun k : Fin 16 => (iblk1 V c 0 t : S10000x16.Idx → EReal) (ix2 p k))
      = fun k => (V c main_v27 : S100000x16.Idx → EReal) (ix2 ⟨t.val * 10000 + p.val, hlt⟩ k) from funext fun k => blk1_0 V c t p k hlt,
    show (fun k : Fin 16 => (iblk1 V c 1 t : S10000x16.Idx → EReal) (ix2 p k))
      = fun k => (V c main_v17 : S100000x16.Idx → EReal) (ix2 ⟨t.val * 10000 + p.val, hlt⟩ k) from funext fun k => blk1_1 V c t p k hlt]

/-- An index of the output array lies in tile `t`'s block iff its row is one of the tile's 10000 rows. -/
theorem mem_blk1 (t : Fin cfg1.N) (i : S100000x7.Idx) :
    i ∈ ((cfg1.win 5).blk t).view.set ↔ ∀ a : Fin 2, win1_5.index t a * S10000x7.size a ≤ (i a).val ∧ (i a).val < win1_5.index t a * S10000x7.size a + S10000x7.size a := by
  show i ∈ ((View.whole main_v31).slice (win1_5.rect t)).set ↔ _
  rw [View.set_slice_whole, Rect.mem_set_unit]
  exact Iff.rfl

/-- Every index of the output array is in the block of the tile its row falls in. -/
theorem cover1 (i : S100000x7.Idx) : ∃ t : Fin cfg1.N, (cfg1.win 5).flush t = true ∧ i ∈ ((cfg1.win 5).blk t).view.set := by
  have hi0 : (i 0).val < 100000 := (i 0).isLt
  have hi1 : (i 1).val < 7 := (i 1).isLt
  have hN : cfg1.N = 10 := N_1
  refine ⟨⟨(i 0).val / 10000, by rw [hN]; omega⟩, flush1_5 _, ?_⟩
  rw [mem_blk1]
  obtain ⟨-, -, -, -, -, -, -, -, -, -, e0, e1⟩ := idx1 ⟨(i 0).val / 10000, by rw [hN]; omega⟩
  intro a
  match a with
  | ⟨0, _⟩ =>
    show win1_5.index _ (0 : Fin 2) * 10000 ≤ (i 0).val ∧ (i 0).val < win1_5.index _ (0 : Fin 2) * 10000 + 10000
    rw [e0]; show (i 0).val / 10000 * 10000 ≤ (i 0).val ∧ (i 0).val < (i 0).val / 10000 * 10000 + 10000; omega
  | ⟨1, _⟩ =>
    show win1_5.index _ (1 : Fin 2) * 7 ≤ (i 1).val ∧ (i 1).val < win1_5.index _ (1 : Fin 2) * 7 + 7
    rw [e1]; omega

/-- After the last tile the output array holds the layer of the arrays the tiled call was entered with. -/
theorem final1 (c : Dev nD) : (dat1 V c).arrAt 5 cfg1.N = scoresOut V c :=
  (dat1 V c).arrAt_eq_of_cover 5 (scoresOut V c) (fun t _ => flushed1_eq V c t) (cover1)

end Cert.KernelIdeal.Hand

end
-- ==== Proof.Stretches.lean ====
import proofs.«120785_j73005854097868_1_alg».proof.Proof.Gen.KernelIdeal.Frame
import Idealize.ShloMosaic.Lib.StableHlo.Run

/-!
# What the array operations around the two tiled layers compute

Before each tiled layer the program gathers, for every edge, the feature row of the edge's source node and adds it into
the row of the edge's destination node (a scatter-add into zeros): the neighbourhood sums. The source indices are read
from row 0 of the edge array, with a negative index wrapped once by the node count; the destination indices from row 1.
It also transposes the two weight matrices and recasts the bias as a one-row matrix. Here each array a tiled layer
reads is named as that function of the launch arrays (and, for the second layer, of the hidden-feature array).
-/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- Row `r` of the edge array as a flat list of node indices. -/
def edgeRow0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000
def edgeRow1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The gather's start indices: a negative source index wrapped once by the node count, as a column. -/
def wrapped (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The neighbourhood sums of 64-wide features: rows gathered at the sources, added into zeros at the destinations. -/
def neighbourSum64 (x : (⟨S100000x64, .f32⟩ : BufTy).Contents (Elt F)) (src dst : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 dst)
    (Host.gather gather_S100000x64_S1600000x1_S1600000x64_1_0_n_n_0_1_164 x (wrapped src))

/-- The neighbourhood sums of 16-wide features. -/
def neighbourSum16 (h : (⟨S100000x16, .f32⟩ : BufTy).Contents (Elt F)) (src dst : (⟨S1600000, .i32⟩ : BufTy).Contents (Elt F)) :
    (⟨S100000x16, .f32⟩ : BufTy).Contents (Elt F) :=
  Host.scatterAdd scatter_S100000x16_S1600000x1_S1600000x16_1_0_0_1
    (broadcastInDim S100000x16 ![] bcast_S_S100000x16 (constant (F := F) S_ .f32 0x00000000#32))
    (broadcastInDim S1600000x1 ![0] bcast_S1600000_S1600000x1_0 dst)
    (Host.gather gather_S100000x16_S1600000x1_S1600000x16_1_0_n_n_0_1_116 h (wrapped src))

/-! ## Before the first layer -/

theorem W1_v1 (c : Dev nD) : W1 m ρ c (Proc.devRef .tc main_v1) = edgeRow0 (m ((c : Thread nD τ).loc main_arg1)) := by
  show StableHlo.after hostOps0 (W0 m ρ c) (Proc.devRef .tc main_v1) = _
  after_results <;> rfl

theorem W1_v3 (c : Dev nD) : W1 m ρ c (Proc.devRef .tc main_v3) = edgeRow1 (m ((c : Thread nD τ).loc main_arg1)) := by
  show StableHlo.after hostOps0 (W0 m ρ c) (Proc.devRef .tc main_v3) = _
  after_results <;> rfl

theorem V1_v13 (c : Dev nD) : V1 m ρ c main_v13
    = neighbourSum64 (m ((c : Thread nD τ).loc main_arg0)) (edgeRow0 (m ((c : Thread nD τ).loc main_arg1))) (edgeRow1 (m ((c : Thread nD τ).loc main_arg1))) := by
  show StableHlo.after hostOps0 (W0 m ρ c) (Proc.devRef .tc main_v13) = _
  after_results <;> rfl

theorem V1_arg0 (c : Dev nD) : V1 m ρ c main_arg0 = m ((c : Thread nD τ).loc main_arg0) := by
  show StableHlo.after hostOps0 (W0 m ρ c) (Proc.devRef .tc main_arg0) = _
  after_results <;> rfl

theorem V1_v14 (c : Dev nD) : V1 m ρ c main_v14 = transpose S64x16 [1, 0] (m ((c : Thread nD τ).loc main_arg2)) transposes_S16x64_S64x16_1_0 := by
  show StableHlo.after hostOps0 (W0 m ρ c) (Proc.devRef .tc main_v14) = _
  after_results <;> rfl

theorem V1_v15 (c : Dev nD) : V1 m ρ c main_v15 = transpose S64x16 [1, 0] (m ((c : Thread nD τ).loc main_arg4)) transposes_S16x64_S64x16_1_0 := by
  show StableHlo.after hostOps0 (W0 m ρ c) (Proc.devRef .tc main_v15) = _
  after_results <;> rfl

theorem V1_v16 (c : Dev nD) : V1 m ρ c main_v16 = shapeCast S1x16 (m ((c : Thread nD τ).loc main_arg3)) shapeCasts_S16_S1x16 := by
  show StableHlo.after hostOps0 (W0 m ρ c) (Proc.devRef .tc main_v16) = _
  after_results <;> rfl

/-! ## Between the two layers -/

/-- The first tiled layer writes none of the edge-index lists: they reach the second stretch as first computed. -/
theorem W2_v1 (c : Dev nD) : W2 m ρ c (Proc.devRef .tc main_v1) = edgeRow0 (m ((c : Thread nD τ).loc main_arg1)) :=
  (W2_of_ne m ρ c main_v1 (by decide)).trans (W1_v1 m ρ c)

theorem W2_v3 (c : Dev nD) : W2 m ρ c (Proc.devRef .tc main_v3) = edgeRow1 (m ((c : Thread nD τ).loc main_arg1)) :=
  (W2_of_ne m ρ c main_v3 (by decide)).trans (W1_v3 m ρ c)

theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl

theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-- The second layer's neighbourhood sums are those of the hidden-feature array the first layer left. -/
theorem V3_v27 (c : Dev nD) : V3 m ρ c main_v27
    = neighbourSum16 (W2 m ρ c (Proc.devRef .tc main_v17)) (edgeRow0 (m ((c : Thread nD τ).loc main_arg1))) (edgeRow1 (m ((c : Thread nD τ).loc main_arg1))) := by
  show StableHlo.after hostOps1 (W2 m ρ c) (Proc.devRef .tc main_v27) = _
  after_results
  rw [W2_v1, W2_v3]
  rfl

theorem V3_v17 (c : Dev nD) : V3 m ρ c main_v17 = W2 m ρ c (Proc.devRef .tc main_v17) := by
  show StableHlo.after hostOps1 (W2 m ρ c) (Proc.devRef .tc main_v17) = _
  after_results <;> rfl

theorem V3_v28 (c : Dev nD) : V3 m ρ c main_v28 = transpose S16x7 [1, 0] (m ((c : Thread nD τ).loc main_arg5)) transposes_S7x16_S16x7_1_0 := by
  show StableHlo.after hostOps1 (W2 m ρ c) (Proc.devRef .tc main_v28) = _
  after_results
  rw [W2_arg5]

theorem V3_v29 (c : Dev nD) : V3 m ρ c main_v29 = transpose S16x7 [1, 0] (m ((c : Thread nD τ).loc main_arg7)) transposes_S7x16_S16x7_1_0 := by
  show StableHlo.after hostOps1 (W2 m ρ c) (Proc.devRef .tc main_v29) = _
  after_results
  rw [W2_arg7]

theorem V3_v30 (c : Dev nD) : V3 m ρ c main_v30 = shapeCast S1x7 (m ((c : Thread nD τ).loc main_arg6)) shapeCasts_S7_S1x7 := by
  show StableHlo.after hostOps1 (W2 m ρ c) (Proc.devRef .tc main_v30) = _
  after_results
  rw [W2_arg6]
  rfl

end Cert.KernelIdeal.Hand

end
-- ==== Proof.RunResult.lean ====
import proofs.«120785_j73005854097868_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two-layer program's run, with its result array named

The program is two tiled layers, each preceded by a stretch of array operations. Every execution ends with each buffer
at the contents obtained by folding the four segments over the launch memory: the first stretch of array operations,
the first layer's tiles written back into the hidden-feature array, the second stretch, the second layer's tiles
written back into the result array. Here the final state's result array is read at that fold, beside the unchanged
argument arrays.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last segment boundary's
    contents of its buffer, and the eight argument arrays end as launched. -/
theorem run_result : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.KernelValue.lean ====
import proofs.«120785_j73005854097868_1_alg».proof.Proof.Tiles0
import proofs.«120785_j73005854097868_1_alg».proof.Proof.Tiles1
import proofs.«120785_j73005854097868_1_alg».proof.Proof.Stretches
import proofs.«120785_j73005854097868_1_alg».proof.Proof.RunResult

/-!
# The kernel program's result as one function of its arguments

Chaining the four segments: the first layer is entered with the neighbourhood sums of the node features, the node
features, the transposed weights and the bias row; it leaves the hidden features. The second layer is entered with the
neighbourhood sums of the hidden features, the hidden features, its transposed weights and bias row; it leaves the
result. So the result array is the log-softmax layer of (the neighbourhood sums of `H`, `H`), with `H` the first layer
of (the neighbourhood sums of `x`, `x`).
-/

set_option maxRecDepth 16384

noncomputable section

namespace Cert.KernelIdeal.Hand

open Cert.KernelIdeal Cert.KernelIdeal.Gen Idealize.ShloMosaic Idealize.ShloMosaic.TcCoe Idealize.ShloMosaic.ValueIdx
open Cert.GraphLayer Idealize.SL.Sem

/-- The hidden features as a function of the first five arguments. -/
def hiddenOf (a0 : (⟨S100000x64, .f32⟩ : BufTy).Contents (Elt Ideal)) (a1 : (⟨S2x1600000, .i32⟩ : BufTy).Contents (Elt Ideal))
    (a2 : (⟨S16x64, .f32⟩ : BufTy).Contents (Elt Ideal)) (a3 : (⟨S16, .f32⟩ : BufTy).Contents (Elt Ideal))
    (a4 : (⟨S16x64, .f32⟩ : BufTy).Contents (Elt Ideal)) : S100000x16.Idx → EReal :=
  layer (N := 100000) (K := 64) (C := 16)
    (fun a x => reluRow a x (transpose S64x16 [1, 0] a2 transposes_S16x64_S64x16_1_0) (transpose S64x16 [1, 0] a4 transposes_S16x64_S64x16_1_0)
      (fun j => (shapeCast S1x16 a3 shapeCasts_S16_S1x16 : S1x16.Idx → EReal) (ix2 (0 : Fin 1) j)))
    (neighbourSum64 a0 (edgeRow0 a1) (edgeRow1 a1)) a0

/-- The result as a function of the eight arguments. -/
def resultOf (a0 : (⟨S100000x64, .f32⟩ : BufTy).Contents (Elt Ideal)) (a1 : (⟨S2x1600000, .i32⟩ : BufTy).Contents (Elt Ideal))
    (a2 : (⟨S16x64, .f32⟩ : BufTy).Contents (Elt Ideal)) (a3 : (⟨S16, .f32⟩ : BufTy).Contents (Elt Ideal))
    (a4 : (⟨S16x64, .f32⟩ : BufTy).Contents (Elt Ideal)) (a5 : (⟨S7x16, .f32⟩ : BufTy).Contents (Elt Ideal))
    (a6 : (⟨S7, .f32⟩ : BufTy).Contents (Elt Ideal)) (a7 : (⟨S7x16, .f32⟩ : BufTy).Contents (Elt Ideal)) : S100000x7.Idx → EReal :=
  layer (N := 100000) (K := 16) (C := 7)
    (fun a x => logSoftmaxRow a x (transpose S16x7 [1, 0] a5 transposes_S7x16_S16x7_1_0) (transpose S16x7 [1, 0] a7 transposes_S7x16_S16x7_1_0)
      (fun j => (shapeCast S1x7 a6 shapeCasts_S7_S1x7 : S1x7.Idx → EReal) (ix2 (0 : Fin 1) j)))
    (neighbourSum16 (hiddenOf a0 a1 a2 a3 a4) (edgeRow0 a1) (edgeRow1 a1)) (hiddenOf a0 a1 a2 a3 a4)

variable (m : (ℓ : Loc nD τ sig) → Buf (Elt Ideal) ℓ) (ρ : Dev nD → PrngReg)

/-- The hidden-feature array between the two layers. -/
theorem hidden_value (c : Dev nD) : W2 m ρ c (Proc.devRef .tc main_v17)
    = hiddenOf (m ((c : Thread nD τ).loc main_arg0)) (m ((c : Thread nD τ).loc main_arg1)) (m ((c : Thread nD τ).loc main_arg2))
        (m ((c : Thread nD τ).loc main_arg3)) (m ((c : Thread nD τ).loc main_arg4)) := by
  refine ((W2_arr m ρ c 5).trans (final0 (V1 m ρ) c)).trans ?_
  unfold hidden hiddenOf
  rw [V1_v13, V1_v14, V1_v15, V1_v16, V1_arg0]

/-- The result array after the last segment. -/
theorem result_value (c : Dev nD) : W4 m ρ c (Proc.devRef .tc main_v31)
    = resultOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine ((W4_arr m ρ c 5).trans (final1 (V3 m ρ) c)).trans ?_
  unfold scoresOut resultOf
  rw [V3_v27, V3_v17, V3_v28, V3_v29, V3_v30, hidden_value]

/-- The kernel program's run with its result named as that function of the arguments. -/
theorem run : θ_run defs (onTc (τ := τ) (main (F := Ideal))) ⟨m, fun _ => 0, ρ⟩ (fun r => ∀ c : Dev nD,
      r.2.mem ((c.tc : Thread nD τ).loc main_v31)
        = resultOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_value m ρ c), (h c).2⟩) (run_result m ρ)

end Cert.KernelIdeal.Hand

end
-- ==== Proof.RefLayers.lean ====
import proofs.«120785_j73005854097868_1_alg».proof.Proof.RefRead
import proofs.«120785_j73005854097868_1_alg».proof.Proof.GraphLayer
import Idealize.ShloMosaic.PureOps.Reduce

/-!
# The reference's two layers, row by row

The reference applies each layer to the whole node axis at once: two matrix products with the transposed weights, the
bias row added to the first, the two added, then `max(·, 0)` for the first layer and, for the second, the log-softmax
written as `s - M - log ∑ exp (s - M)` with `M = max(-∞, max_j s_j)`. Read at an entry `(r, q)` each product is the
sum over `k` of row `r` times column `q`, so each stage is the layer's row function of row `r` of its two feature
arrays; the extra `max` with `-∞` changes nothing, since a fold of `max` started at `-∞` is at least `-∞`.
-/

set_option maxRecDepth 16384

noncomputable section

namespace Cert.ReferenceIdeal.Hand

open Cert.ReferenceIdeal Cert.ReferenceIdeal.Gen Cert.ReferenceIdeal.ReadP Idealize.ShloMosaic Idealize.ShloMosaic.ValueIdx Cert.GraphLayer

variable (x0 : (⟨S100000x64, .f32⟩ : BufTy).Contents (Elt Ideal)) (x1 : (⟨S2x1600000, .i32⟩ : BufTy).Contents (Elt Ideal))
  (x2 : (⟨S16x64, .f32⟩ : BufTy).Contents (Elt Ideal)) (x3 : (⟨S16, .f32⟩ : BufTy).Contents (Elt Ideal))
  (x4 : (⟨S16x64, .f32⟩ : BufTy).Contents (Elt Ideal)) (x5 : (⟨S7x16, .f32⟩ : BufTy).Contents (Elt Ideal))
  (x6 : (⟨S7, .f32⟩ : BufTy).Contents (Elt Ideal)) (x7 : (⟨S7x16, .f32⟩ : BufTy).Contents (Elt Ideal))

/-- The hidden features: the first layer of the neighbourhood sums and the node features. -/
theorem hidden_eq :
    val_main_v22 (F := Ideal) x0 x1 x2 x3 x4
      = layer (N := 100000) (K := 64) (C := 16)
          (fun a x => reluRow a x (val_main_v14 (F := Ideal) x2) (val_main_v19 (F := Ideal) x4) (fun j => x3 (ix1 j)))
          (val_main_v13 (F := Ideal) x0 x1) x0 := by
  funext i
  obtain ⟨r, q, rfl⟩ : ∃ (r : Fin 100000) (q : Fin 16), i = ix2 r q := ⟨i 0, i 1, eq_ix2 i⟩
  rw [layer_ix2, val_main_v22_apply, val_main_v21_apply, val_main_v18_apply, val_main_v15_apply, val_main_v17_apply,
    val_main_v16_apply, val_main_v20_apply, val_main_call0_v0_apply, val_main_call0_cst_apply]
  have e1 : ∀ k : Fin 64, lidx_main_v15 (ix2 r q) k = ix2 r k := fun k => funext fun a => Fin.ext (by
    match a with
    | ⟨0, _⟩ => rfl
    | ⟨1, _⟩ => rfl)
  have e2 : ∀ k : Fin 64, ridx_main_v15 (ix2 r q) k = ix2 k q := fun k => funext fun a => Fin.ext (by
    match a with
    | ⟨0, _⟩ => rfl
    | ⟨1, _⟩ => rfl)
  have e3 : ∀ k : Fin 64, lidx_main_v20 (ix2 r q) k = ix2 r k := fun k => funext fun a => Fin.ext (by
    match a with
    | ⟨0, _⟩ => rfl
    | ⟨1, _⟩ => rfl)
  have e4 : ∀ k : Fin 64, ridx_main_v20 (ix2 r q) k = ix2 k q := fun k => funext fun a => Fin.ext (by
    match a with
    | ⟨0, _⟩ => rfl
    | ⟨1, _⟩ => rfl)
  have e5 : idx_main_v16 (idx_main_v17 (ix2 r q)) = ix1 q := funext fun a => Fin.ext (by
    match a with
    | ⟨0, _⟩ => rfl)
  simp only [e1, e2, e3, e4, e5]
  generalize val_main_v13 (F := Ideal) x0 x1 = A
  generalize val_main_v14 (F := Ideal) x2 = Wr
  generalize val_main_v19 (F := Ideal) x4 = Wo
  rfl

/-- The scores before the softmax at `(r, j)`: the pre-activation of row `r` of the second layer's two feature arrays. -/
theorem scores_at (r : Fin 100000) (j : Fin 7) :
    val_main_v44 (F := Ideal) x0 x1 x2 x3 x4 x5 x6 x7 (ix2 r j)
      = pre (fun k : Fin 16 => val_main_v36 (F := Ideal) x0 x1 x2 x3 x4 (ix2 r k))
          (fun k : Fin 16 => val_main_v22 (F := Ideal) x0 x1 x2 x3 x4 (ix2 r k))
          (val_main_v37 (F := Ideal) x5) (val_main_v42 (F := Ideal) x7) (fun c => x6 (ix1 c)) j := by
  rw [val_main_v44_apply, val_main_v41_apply, val_main_v38_apply, val_main_v40_apply, val_main_v39_apply, val_main_v43_apply]
  have e1 : ∀ k : Fin 16, lidx_main_v38 (ix2 r j) k = ix2 r k := fun k => funext fun a => Fin.ext (by
    match a with
    | ⟨0, _⟩ => rfl
    | ⟨1, _⟩ => rfl)
  have e2 : ∀ k : Fin 16, ridx_main_v38 (ix2 r j) k = ix2 k j := fun k => funext fun a => Fin.ext (by
    match a with
    | ⟨0, _⟩ => rfl
    | ⟨1, _⟩ => rfl)
  have e3 : ∀ k : Fin 16, lidx_main_v43 (ix2 r j) k = ix2 r k := fun k => funext fun a => Fin.ext (by
    match a with
    | ⟨0, _⟩ => rfl
    | ⟨1, _⟩ => rfl)
  have e4 : ∀ k : Fin 16, ridx_main_v43 (ix2 r j) k = ix2 k j := fun k => funext fun a => Fin.ext (by
    match a with
    | ⟨0, _⟩ => rfl
    | ⟨1, _⟩ => rfl)
  have e5 : idx_main_v39 (idx_main_v40 (ix2 r j)) = ix1 j := funext fun a => Fin.ext (by
    match a with
    | ⟨0, _⟩ => rfl)
  simp only [e1, e2, e3, e4, e5]
  generalize val_main_v36 (F := Ideal) x0 x1 x2 x3 x4 = A
  generalize val_main_v22 (F := Ideal) x0 x1 x2 x3 x4 = H
  generalize val_main_v37 (F := Ideal) x5 = Wr
  generalize val_main_v42 (F := Ideal) x7 = Wo
  rfl

/-- Inserting coordinate `k` on the reduced axis of row `r` gives entry `(r, k)`. -/
theorem lift_row (h : S100000x7.Reduces [1] S100000) (r : Fin 100000) (k : Fin 7) : h.lift (ix1 r) k = ix2 r k :=
  funext fun a => Fin.ext (by
    match a with
    | ⟨0, _⟩ => rfl
    | ⟨1, _⟩ => rfl)

end Cert.ReferenceIdeal.Hand

end
-- ==== Proof.RefSoftmax.lean ====
import proofs.«120785_j73005854097868_1_alg».proof.Proof.RefLayers
import proofs.«120785_j73005854097868_1_alg».proof.Proof.LibColumnLayout

/-!
# The reference's log-softmax, row by row

The reference subtracts from each score the row maximum `max(-∞, max_j s_j)`, then the logarithm of the row's sum of
exponentials of the differences. A fold of `max` started at `-∞` is at least `-∞`, so the outer `max` is the
identity, and the result at `(r, q)` is the log-softmax row function of row `r` of the second layer's two feature arrays.
-/

set_option maxRecDepth 16384

noncomputable section

namespace Cert.ReferenceIdeal.Hand

open Cert.ReferenceIdeal Cert.ReferenceIdeal.Gen Cert.ReferenceIdeal.ReadP Idealize.ShloMosaic Idealize.ShloMosaic.ValueIdx Cert.GraphLayer

variable (x0 : (⟨S100000x64, .f32⟩ : BufTy).Contents (Elt Ideal)) (x1 : (⟨S2x1600000, .i32⟩ : BufTy).Contents (Elt Ideal))
  (x2 : (⟨S16x64, .f32⟩ : BufTy).Contents (Elt Ideal)) (x3 : (⟨S16, .f32⟩ : BufTy).Contents (Elt Ideal))
  (x4 : (⟨S16x64, .f32⟩ : BufTy).Contents (Elt Ideal)) (x5 : (⟨S7x16, .f32⟩ : BufTy).Contents (Elt Ideal))
  (x6 : (⟨S7, .f32⟩ : BufTy).Contents (Elt Ideal)) (x7 : (⟨S7x16, .f32⟩ : BufTy).Contents (Elt Ideal))

/-- A fold of `max` is at least the value it starts from. -/
theorem start_le_fold_max {ι : Type} [DecidableEq ι] (s : Finset ι) (b : EReal) (f : ι → EReal) : b ≤ s.fold max b f := by
  induction s using Finset.induction_on with
  | empty => simp
  | insert a s ha ih => rw [Finset.fold_insert ha]; exact le_trans ih (le_max_right _ _)

/-- The maximum the reference subtracts, for any score array `v`: `max(-∞, ·)` of the reduction along row `r` is the fold of
    `max` from `-∞` over the seven entries of the row. -/
theorem hostmax_row (v : FVec Ideal S100000x7 .f32) (h : S100000x7.Reduces [1] S100000) (r : Fin 100000) :
    max (Ideal.ofBits .f32 0xFF800000#32)
        (Host.reduce FloatOps.maximumf v (constant (F := Ideal) S_ .f32 0xFF800000#32) reducesTo_S100000x7_S100000_d1 h_S_ (ix1 r))
      = (Finset.univ : Finset (Fin 7)).fold max (Ideal.ofBits .f32 0xFF800000#32) (fun j => v (ix2 r j)) := by
  rw [Host.reduce_eq_fold_single FloatOps.maximumf v (constant (F := Ideal) S_ .f32 0xFF800000#32) reducesTo_S100000x7_S100000_d1 h h_S_ (ix1 r)]
  rw [show (v ∘ h.lift (ix1 r)) = fun j : Fin 7 => v (ix2 r j) from funext fun k => congrArg v (lift_row h r k)]
  show max (Ideal.ofBits .f32 0xFF800000#32) (Finset.fold max (Ideal.ofBits .f32 0xFF800000#32) (fun j : Fin 7 => v (ix2 r j)) Finset.univ) = _
  exact max_eq_right (start_le_fold_max _ _ _)

/-- The row maxima the reference subtracts from a score array `s`. -/
def refMax (s : FVec Ideal S100000x7 .f32) : FVec Ideal S100000 .f32 :=
  maximumf (broadcastInDim S100000 ![] bcast_S_S100000 (constant (F := Ideal) S_ .f32 0xFF800000#32))
    (Host.reduce FloatOps.maximumf s (constant (F := Ideal) S_ .f32 0xFF800000#32) reducesTo_S100000x7_S100000_d1 h_S_)

/-- The scores with their row maxima subtracted. -/
def refShift (s : FVec Ideal S100000x7 .f32) : FVec Ideal S100000x7 .f32 :=
  subf s (broadcastInDim S100000x7 ![0, 1] bcast_S100000x1_S100000x7_0_1
    (broadcastInDim S100000x1 ![0] bcast_S100000_S100000x1_0 (refMax s)))

/-- The reference's log-softmax of a score array `s`, as it composes it. -/
def refTail (s : FVec Ideal S100000x7 .f32) : FVec Ideal S100000x7 .f32 :=
  subf (refShift s) (broadcastInDim S100000x7 ![0, 1] bcast_S100000x1_S100000x7_0_1
    (Host.log (broadcastInDim S100000x1 ![0] bcast_S100000_S100000x1_0
      (Host.reduceAdd (Host.exp (refShift s)) (constant (F := Ideal) S_ .f32 0x00000000#32) reducesTo_S100000x7_S100000_d1 h_S_))))

/-- The reference's result is that composition applied to its scores. -/
theorem result_tail : val_main_v45 (F := Ideal) x0 x1 x2 x3 x4 x5 x6 x7 = refTail (val_main_v44 (F := Ideal) x0 x1 x2 x3 x4 x5 x6 x7) := by
  unfold val_main_v45 val_main_call1_v10 val_main_call1_v9 val_main_call1_v8 val_main_call1_v7 val_main_call1_v6 val_main_call1_v5
    val_main_call1_v4 val_main_call1_v3 val_main_call1_v2 val_main_call1_v1 val_main_call1_v0 val_main_call1_cst val_main_call1_cst_0
    val_main_call1_cst_1
  generalize val_main_v44 (F := Ideal) x0 x1 x2 x3 x4 x5 x6 x7 = s
  rfl

/-- The row maxima the reference subtracts, at row `r`: the row's maximum folded from `-∞`. -/
theorem refMax_at (s : FVec Ideal S100000x7 .f32) (r : Fin 100000) :
    refMax s (ix1 r) = (Finset.univ : Finset (Fin 7)).fold max (Ideal.ofBits .f32 0xFF800000#32) (fun c => s (ix2 r c)) := by
  have h : S100000x7.Reduces [1] S100000 := by decide
  unfold refMax
  rw [maximumf_apply]
  rw [show broadcastInDim S100000 ![] bcast_S_S100000 (constant (F := Ideal) S_ .f32 0xFF800000#32) (ix1 r)
      = Ideal.ofBits .f32 0xFF800000#32 from rfl]
  exact hostmax_row s h r

/-- The subtracted maximum, spread over row `r`, is the row's maximum folded from `-∞`. -/
theorem refShift_at (s : FVec Ideal S100000x7 .f32) (r : Fin 100000) (j : Fin 7) :
    refShift s (ix2 r j)
      = s (ix2 r j) - (Finset.univ : Finset (Fin 7)).fold max (Ideal.ofBits .f32 0xFF800000#32) (fun c => s (ix2 r c)) := by
  unfold refShift
  rw [subf_apply, Cert.LibColumnLayout.broadcastInDim_a1_ab_apply, Cert.LibColumnLayout.broadcastInDim_a_a1_apply, refMax_at]

theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The reference's sum of exponentials along row `r`. -/
theorem refSum_at (s : FVec Ideal S100000x7 .f32) (r : Fin 100000) :
    Host.reduceAdd (Host.exp (refShift s)) (constant (F := Ideal) S_ .f32 0x00000000#32) reducesTo_S100000x7_S100000_d1 h_S_ (ix1 r)
      = ∑ j : Fin 7, Ideal.exp (s (ix2 r j)
          - (Finset.univ : Finset (Fin 7)).fold max (Ideal.ofBits .f32 0xFF800000#32) (fun c => s (ix2 r c))) := by
  have h : S100000x7.Reduces [1] S100000 := by decide
  simp only [Host.reduceAdd, Ideal.hostReduceAdd_def]
  rw [Ideal.hostReduceAdd_single reducesTo_S100000x7_S100000_d1 h, constant_apply, Ideal.ofBits_zero_f32, zero_add]
  refine Finset.sum_congr rfl fun k _ => ?_
  rw [lift_row h r k, hostExp_apply]
  exact congrArg Ideal.exp (refShift_at s r k)

/-- The reference's log-softmax of `s` at `(r, q)`. -/
theorem refTail_at (s : FVec Ideal S100000x7 .f32) (r : Fin 100000) (q : Fin 7) :
    refTail s (ix2 r q)
      = (s (ix2 r q) - (Finset.univ : Finset (Fin 7)).fold max (Ideal.ofBits .f32 0xFF800000#32) (fun c => s (ix2 r c)))
        - Ideal.log (∑ j : Fin 7, Ideal.exp (s (ix2 r j)
            - (Finset.univ : Finset (Fin 7)).fold max (Ideal.ofBits .f32 0xFF800000#32) (fun c => s (ix2 r c)))) := by
  unfold refTail
  rw [subf_apply, refShift_at, Cert.LibColumnLayout.broadcastInDim_a1_ab_apply, hostLog_apply,
    Cert.LibColumnLayout.broadcastInDim_a_a1_apply, refSum_at]

/-- The result: the log-softmax layer of the second neighbourhood sums and the hidden features. -/
theorem result_eq :
    val_main_v45 (F := Ideal) x0 x1 x2 x3 x4 x5 x6 x7
      = layer (N := 100000) (K := 16) (C := 7)
          (fun a x => logSoftmaxRow a x (val_main_v37 (F := Ideal) x5) (val_main_v42 (F := Ideal) x7) (fun j => x6 (ix1 j)))
          (val_main_v36 (F := Ideal) x0 x1 x2 x3 x4) (val_main_v22 (F := Ideal) x0 x1 x2 x3 x4) := by
  funext i
  obtain ⟨r, q, rfl⟩ : ∃ (r : Fin 100000) (q : Fin 7), i = ix2 r q := ⟨i 0, i 1, eq_ix2 i⟩
  rw [result_tail, refTail_at, layer_ix2]
  simp only [scores_at]
  generalize val_main_v36 (F := Ideal) x0 x1 x2 x3 x4 = A
  generalize val_main_v22 (F := Ideal) x0 x1 x2 x3 x4 = H
  generalize val_main_v37 (F := Ideal) x5 = Wr
  generalize val_main_v42 (F := Ideal) x7 = Wo
  rfl

end Cert.ReferenceIdeal.Hand

end
-- ==== Proof.Bridge.lean ====
import proofs.«120785_j73005854097868_1_alg».proof.Proof.KernelValue
import proofs.«120785_j73005854097868_1_alg».proof.Proof.RefSoftmax
import Idealize.ShloMosaic.Lib.ValueLayout

/-!
# The two programs compute one function

Both programs form the neighbourhood sums with the same gather and scatter-add on the same index lists, transpose the
same weight matrices and apply the same two row functions; they differ in how the node axis is cut, which a row
function does not see, and in how the bias is laid out: the kernel recasts the `C` numbers as a `[1, C]` row and reads
entry `(0, j)`, the reference spreads entry `j` — the same number.
-/

set_option maxRecDepth 16384

noncomputable section

namespace Cert.Proof.Bridge

open Idealize.ShloMosaic Idealize.ShloMosaic.ValueIdx Cert.GraphLayer
open Cert.KernelIdeal Cert.KernelIdeal.Gen Cert.KernelIdeal.Hand
open Cert.ReferenceIdeal.ReadP Cert.ReferenceIdeal.Hand

variable (a0 : (⟨S100000x64, .f32⟩ : BufTy).Contents (Elt Ideal)) (a1 : (⟨S2x1600000, .i32⟩ : BufTy).Contents (Elt Ideal))
  (a2 : (⟨S16x64, .f32⟩ : BufTy).Contents (Elt Ideal)) (a3 : (⟨S16, .f32⟩ : BufTy).Contents (Elt Ideal))
  (a4 : (⟨S16x64, .f32⟩ : BufTy).Contents (Elt Ideal)) (a5 : (⟨S7x16, .f32⟩ : BufTy).Contents (Elt Ideal))
  (a6 : (⟨S7, .f32⟩ : BufTy).Contents (Elt Ideal)) (a7 : (⟨S7x16, .f32⟩ : BufTy).Contents (Elt Ideal))

/-- The reference's first neighbourhood sums are the kernel program's. -/
theorem sums64_eq : val_main_v13 (F := Ideal) a0 a1 = neighbourSum64 a0 (edgeRow0 a1) (edgeRow1 a1) := rfl

/-- The reference's second neighbourhood sums are the kernel program's, of the reference's hidden features. -/
theorem sums16_eq : val_main_v36 (F := Ideal) a0 a1 a2 a3 a4
    = neighbourSum16 (val_main_v22 (F := Ideal) a0 a1 a2 a3 a4) (edgeRow0 a1) (edgeRow1 a1) := rfl

theorem wrel1_eq : val_main_v14 (F := Ideal) a2 = transpose S64x16 [1, 0] a2 transposes_S16x64_S64x16_1_0 := rfl
theorem wroot1_eq : val_main_v19 (F := Ideal) a4 = transpose S64x16 [1, 0] a4 transposes_S16x64_S64x16_1_0 := rfl
theorem wrel2_eq : val_main_v37 (F := Ideal) a5 = transpose S16x7 [1, 0] a5 transposes_S7x16_S16x7_1_0 := rfl
theorem wroot2_eq : val_main_v42 (F := Ideal) a7 = transpose S16x7 [1, 0] a7 transposes_S7x16_S16x7_1_0 := rfl

/-- The bias recast as a one-row matrix, read in its row, is the bias. -/
theorem bias1_eq : (fun j : Fin 16 => (shapeCast S1x16 a3 shapeCasts_S16_S1x16 : S1x16.Idx → EReal) (ix2 (0 : Fin 1) j)) = fun j => a3 (ix1 j) :=
  funext fun j => shapeCast_a_1a_apply a3 shapeCasts_S16_S1x16 0 j
theorem bias2_eq : (fun j : Fin 7 => (shapeCast S1x7 a6 shapeCasts_S7_S1x7 : S1x7.Idx → EReal) (ix2 (0 : Fin 1) j)) = fun j => a6 (ix1 j) :=
  funext fun j => shapeCast_a_1a_apply a6 shapeCasts_S7_S1x7 0 j

/-- The reference's hidden features are the kernel program's. -/
theorem hidden_eq' : val_main_v22 (F := Ideal) a0 a1 a2 a3 a4 = hiddenOf a0 a1 a2 a3 a4 := by
  rw [hidden_eq, sums64_eq, wrel1_eq, wroot1_eq]
  unfold hiddenOf
  rw [bias1_eq]

/-- The reference's result is the kernel program's function of the eight arguments. -/
theorem reference_eq : val_main_v45 (F := Ideal) a0 a1 a2 a3 a4 a5 a6 a7 = resultOf a0 a1 a2 a3 a4 a5 a6 a7 := by
  rw [result_eq, sums16_eq, hidden_eq', wrel2_eq, wroot2_eq]
  unfold resultOf
  rw [bias2_eq]

end Cert.Proof.Bridge

end
-- ==== Proof.lean ====
/-
  A two-layer graph convolution with a final log-softmax, over 100000 nodes and 1600000 edges, written as two tiled
  layers (ten tiles of 10000 nodes each) among gather / scatter-add array operations, against the reference that applies
  each layer to the whole node axis.

  Each layer maps node `r` to `(agg[r] · Wrelᵀ + b) + x[r] · Wrootᵀ`, followed by `max(·, 0)` (layer 1) or the
  log-softmax along the row (layer 2): a function of row `r` of the two feature arrays only. Hence tiling the node axis
  does not change the result; a tile's matrix product accumulated into zero and the whole-array product are the same
  sums; the narrowing of the products' operands is the identity at the exact values; and the reference's extra
  `max(-∞, ·)` around the row maximum is the identity. The neighbourhood sums are formed by the same array operations
  on both sides. No law used needs finiteness, so the precondition is not opened.
-/
import proofs.«120785_j73005854097868_1_alg».proof.Defs
import proofs.«120785_j73005854097868_1_alg».proof.Proof.Gen.Kernel
import proofs.«120785_j73005854097868_1_alg».proof.Proof.Gen.Kernel.Skeleton
import proofs.«120785_j73005854097868_1_alg».proof.Proof.Gen.Kernel.Launch
import proofs.«120785_j73005854097868_1_alg».proof.Proof.Gen.Kernel.Points
import proofs.«120785_j73005854097868_1_alg».proof.Proof.Gen.Kernel.Frame
import proofs.«120785_j73005854097868_1_alg».proof.Proof.Gen.KernelIdeal
import proofs.«120785_j73005854097868_1_alg».proof.Proof.Gen.KernelIdeal.Skeleton
import proofs.«120785_j73005854097868_1_alg».proof.Proof.Gen.KernelIdeal.Launch
import proofs.«120785_j73005854097868_1_alg».proof.Proof.Gen.KernelIdeal.Points
import proofs.«120785_j73005854097868_1_alg».proof.Proof.Gen.KernelIdeal.Frame
import proofs.«120785_j73005854097868_1_alg».proof.Proof.Gen.ReferenceIdeal
import proofs.«120785_j73005854097868_1_alg».proof.Proof.Gen.Pre_finite_inputs
import Idealize.ShloMosaic.Adequacy
import Idealize.ShloMosaic.Init

import proofs.«120785_j73005854097868_1_alg».proof.Proof.Bridge

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the eight arguments both programs end with the result array at one function of them. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v45_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.Proof.Bridge.reference_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
